-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4x2048x1024 .f32) (main_arg1 : FVec F S4096x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4x2048x1024 : Shape := ⟨3, ![4, 2048, 1024]⟩
abbrev S4096x1024 : Shape := ⟨2, ![4096, 1024]⟩
abbrev S8192x1024 : Shape := ⟨2, ![8192, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S4x2048x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048x1024_S8192x1024 : S4x2048x1024.ShapeCasts S8192x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x1024_S4x2048x1024 : S8192x1024.ShapeCasts S4x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x1024.size a
  hwx0_1 : ∀ i : grid0.Coords, EltTy.bits .f32 = 32 ∨ (Rect.block (s := S4096x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .f32 = 32 ∨ (Rect.block (s := S8192x1024) S2048x1024.size (cc0_transform_2 i) (hinb0_2 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S2048x1024 : Shape := ⟨2, ![2048, 1024]⟩
abbrev S1x2048x1024 : Shape := ⟨3, ![1, 2048, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i1⟩
  | .hbm, ⟨6, _⟩ => ⟨S_, .i32⟩
  | .hbm, ⟨7, _⟩ => ⟨S2048, .i32⟩
  | .hbm, ⟨8, _⟩ => ⟨S2048, .i32⟩
  | .hbm, ⟨9, _⟩ => ⟨S2048, .i32⟩
  | .hbm, ⟨10, _⟩ => ⟨S2048x1, .i32⟩
  | .hbm, ⟨11, _⟩ => ⟨S1, .i32⟩
  | .hbm, ⟨12, _⟩ => ⟨S_, .i32⟩
  | .hbm, ⟨13, _⟩ => ⟨S2048x1, .i32⟩
  | .hbm, ⟨14, _⟩ => ⟨S2048x1, .i1⟩
  | .hbm, ⟨15, _⟩ => ⟨S1x1, .i32⟩
  | .hbm, ⟨16, _⟩ => ⟨S2048x1, .i32⟩
  | .hbm, ⟨17, _⟩ => ⟨S2048x1, .i1⟩
  | .hbm, ⟨18, _⟩ => ⟨S2048x1, .i1⟩
  | .hbm, ⟨19, _⟩ => ⟨S_, .i1⟩
  | .hbm, ⟨20, _⟩ => ⟨S2048, .i1⟩
  | .hbm, ⟨21, _⟩ => ⟨S2048x1024, .f32⟩
  | .hbm, ⟨22, _⟩ => ⟨S2048x1024, .i1⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S2048x1024_0 : S2048.BroadcastsInDim S2048x1024 (![0] : Fin 1 → Fin S2048x1024.rank)
  bcast_S_S2048x1024 : S_.BroadcastsInDim S2048x1024 (![] : Fin 0 → Fin S2048x1024.rank)
  bcast_S2048x1024_S1x2048x1024_1_2 : S2048x1024.BroadcastsInDim S1x2048x1024 (![1, 2] : Fin 2 → Fin S1x2048x1024.rank)
  bcast_S1x2048x1024_S4x2048x1024_0_1_2 : S1x2048x1024.BroadcastsInDim S4x2048x1024 (![0, 1, 2] : Fin 3 → Fin S4x2048x1024.rank)
  gather_S4096x1024_S2048x1_S2048x1024_1_0_n_n_0_1_11024_wf : GatherDims.WF S4096x1024 S2048x1 S2048x1024 [1] [0] [] [0] [] 1 ![1, 1024]

variable [Facts₀]

def gather_S4096x1024_S2048x1_S2048x1024_1_0_n_n_0_1_11024 : GatherDims S4096x1024 S2048x1 S2048x1024 where
  offsetDims := [1]
  collapsedSliceDims := [0]
  operandBatchingDims := []
  startIndicesBatchingDims := []
  startIndexMap := [0]
  indexVectorDim := 1
  sliceSizes := ![1, 1024]
  wf := gather_S4096x1024_S2048x1_S2048x1024_1_0_n_n_0_1_11024_wf

class Facts : Prop extends Facts₀ where

variable [Facts]
-- ==== Proof.Spec.lean ====
/-
  The function both programs compute, and the one re-indexing between their two layouts.

  The kernel sees `x` as 8192 rows of 1024 lanes and adds to row `r` the table's row `r mod 2048`; the reference
  sees `x` as 4 batches of 2048 rows and adds to row `s` of every batch the table's row `s`.  Row `r = 2048·b + s`
  of the flat view is row `s` of batch `b`, and `r mod 2048 = s`: the two are one function, entry by entry, with
  no arithmetic on the entries themselves (the same single addition on both sides).
-/
import Idealize.ShloMosaic.PureOps
import Idealize.ShloMosaic.Lib.ValueIdx
import Idealize.ShloMosaic.Lib.Pipeline.Value

noncomputable section

namespace Cert.PosAdd

open Idealize.ShloMosaic Idealize.ShloMosaic.ValueIdx

variable {F : FTy → Type} [FloatOps F]

/-- The three shapes: `x` by batches, the table, `x` flattened to rows. -/
abbrev Sbatch : Shape := ⟨3, ![4, 2048, 1024]⟩
abbrev Stable : Shape := ⟨2, ![4096, 1024]⟩
abbrev Sflat : Shape := ⟨2, ![8192, 1024]⟩

/-- Row `s` (one of the first 2048) of the table, at lane `d`. -/
def tableAt (s : Fin 2048) (d : Fin 1024) : Stable.Idx := ix2 (⟨s.val, by omega⟩ : Fin 4096) d

/-- Row `r` of the flat view, at lane `d`, belongs to position `r mod 2048`. -/
def tableAtFlat (r : Fin 8192) (d : Fin 1024) : Stable.Idx := ix2 (⟨r.val % 2048, by omega⟩ : Fin 4096) d

/-- THE RESULT by batches: entry `(b, s, d)` is `x (b, s, d) + table (s, d)`. -/
def byBatch (x : FVec F Sbatch .f32) (table : FVec F Stable .f32) : FVec F Sbatch .f32 :=
  fun i => FloatOps.addf (x i) (table (tableAt (i 1) (i 2)))

/-- The same over flat rows: entry `(r, d)` is `y (r, d) + table (r mod 2048, d)`. -/
def byRow (y : FVec F Sflat .f32) (table : FVec F Stable .f32) : FVec F Sflat .f32 :=
  fun i => FloatOps.addf (y i) (table (tableAtFlat (i 0) (i 1)))

theorem byBatch_apply (x : FVec F Sbatch .f32) (table : FVec F Stable .f32) (b : Fin 4) (s : Fin 2048) (d : Fin 1024) :
    byBatch x table (ix3 b s d) = FloatOps.addf (x (ix3 b s d)) (table (tableAt s d)) := rfl

theorem byRow_apply (y : FVec F Sflat .f32) (table : FVec F Stable .f32) (r : Fin 8192) (d : Fin 1024) :
    byRow y table (ix2 r d) = FloatOps.addf (y (ix2 r d)) (table (tableAtFlat r d)) := rfl

/-- Flat row `2048·b + s`. -/
def flatRow (b : Fin 4) (s : Fin 2048) : Fin 8192 := ⟨b.val * 2048 + s.val, by omega⟩

theorem tableAtFlat_flatRow (b : Fin 4) (s : Fin 2048) (d : Fin 1024) : tableAtFlat (flatRow b s) d = tableAt s d := by
  unfold tableAtFlat tableAt flatRow
  congr 1
  apply Fin.ext
  show (b.val * 2048 + s.val) % 2048 = s.val
  omega

/-- Flattening reads batch `b`, row `s` at flat row `2048·b + s`. -/
theorem flatten_apply {α : Type} (x : Sbatch.Idx → α) (h : Sbatch.ShapeCasts Sflat) (b : Fin 4) (s : Fin 2048) (d : Fin 1024) :
    shapeCast Sflat x h (ix2 (flatRow b s) d) = x (ix3 b s d) :=
  shapeCast_apply x h _ _ (by rw [Shape.rowMajor_val_two, Shape.rowMajor_val_three]; rfl)

/-- Un-flattening reads flat row `2048·b + s` at batch `b`, row `s`. -/
theorem unflatten_apply {α : Type} (y : Sflat.Idx → α) (h : Sflat.ShapeCasts Sbatch) (b : Fin 4) (s : Fin 2048) (d : Fin 1024) :
    shapeCast Sbatch y h (ix3 b s d) = y (ix2 (flatRow b s) d) :=
  shapeCast_apply y h _ _ (by rw [Shape.rowMajor_val_two, Shape.rowMajor_val_three]; rfl)

/-- THE RE-INDEXING: flatten, add row-wise, un-flatten is the addition by batches. -/
theorem unflatten_byRow_flatten (x : FVec F Sbatch .f32) (table : FVec F Stable .f32)
    (h : Sbatch.ShapeCasts Sflat) (h' : Sflat.ShapeCasts Sbatch) :
    shapeCast Sbatch (byRow (shapeCast Sflat x h) table) h' = byBatch x table := by
  funext i
  obtain ⟨b, s, d, rfl⟩ : ∃ (b : Fin 4) (s : Fin 2048) (d : Fin 1024), i = ix3 b s d := ⟨i 0, i 1, i 2, eq_ix3 i⟩
  rw [unflatten_apply, byRow_apply, flatten_apply, tableAtFlat_flatRow, byBatch_apply]

end Cert.PosAdd

end
-- ==== Proof.KernelValue.lean ====
/-
  What the kernel's program leaves in its result buffer.

  The program flattens `x` to 8192 rows, runs the kernel over four grid points, and un-flattens the kernel's
  output.  At grid point `t` the kernel loads rows `2048·t … 2048·t + 2047` of the flat `x`, loads rows
  `0 … 2047` of the table (the same block at every point), adds them lane by lane and stores the sum as rows
  `2048·t … 2048·t + 2047` of the output.  So row `r` of the output is row `r` of the flat `x` plus row
  `r mod 2048` of the table (`byRow`); the four blocks tile the output, so this holds of every row; and
  un-flattening turns it into the addition by batches (`byBatch`).
-/
import proofs.«170711_g66829691126127_cont_sun_c4_580_13_alg».proof.Proof.Gen.KernelIdeal.Frame
import proofs.«170711_g66829691126127_cont_sun_c4_580_13_alg».proof.Proof.Spec
import Idealize.ShloMosaic.Lib.Pipeline.Value
import Idealize.ShloMosaic.Lib.StableHlo.Run

noncomputable section

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx Cert.PosAdd

variable {F : FTy → Type} [FloatOps F]
variable (m : (ℓ : Loc nD τ sig) → Buf (Elt F) ℓ) (ρ : Dev nD → PrngReg)

/-! ## One grid point -/

theorem origin : (![0, 0] : Fin 2 → Nat) = fun _ => 0 := funext fun a => by fin_cases a <;> rfl

/-- The body's one stored value is the lane-by-lane sum of its two loaded blocks. -/
theorem stored_eq (x0 x1 : Vec F S2048x1024 .f32) : k0_pay1 x0 x1 = addf x0 x1 := by
  unfold k0_pay1
  dsimp only
  rw [shapeCast_self]

/-- Where the three windows' blocks sit at point `t`: the `x` block and the output block at the same block
    row, below 4; the table block always at the origin. -/
theorem blocks_at : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 3 :=
  (by decide +kernel : ∀ t : Fin grid0.N, _)

/-- Every block row of the output is some point's. -/
theorem block_row_onto : ∀ q : Fin 4, ∃ t : Fin cfg0.N, win0_2.index t = ![q.val, 0] :=
  (by decide +kernel : ∀ q : Fin 4, ∃ t : Fin grid0.N, win0_2.index t = ![q.val, 0])

/-- WHAT POINT `t` WRITES BACK is block `t` of the row-wise sum of the flat `x` and the table, both as the
    kernel finds them. -/
theorem flushed_eq (c : Dev nD) (t : Fin cfg0.N) :
    (dats m 0 c).flushed 2 t = ((cfg0.win 2).blk t).view.read (Elt F) (byRow (V m c main_v0) (V m c main_arg1)) := by
  show (cfg0.win 2).cut (grid0.coords t) ((dats m 0 c).after 2 t) = _
  rw [after0_2]
  unfold out0_2
  rw [View.canon_unit_zero origin]
  simp only [View.ld_unit_zero (S := S2048x1024) origin]
  rw [stored_eq]
  obtain ⟨e0, e1, e2, e3, e4, e5⟩ := blocks_at t
  funext j
  show FloatOps.addf (V m c main_v0 (((cfg0.win 0).blk t).view.emb j)) (V m c main_arg1 (((cfg0.win 1).blk t).view.emb j))
    = byRow (V m c main_v0) (V m c main_arg1) (((cfg0.win 2).blk t).view.emb j)
  have hj0 : (j 0).val < 2048 := (j 0).isLt
  have hj1 : (j 1).val < 1024 := (j 1).isLt
  -- the output entry's place in the flat array, and with it the `x` entry's
  have h2 : ((cfg0.win 2).blk t).view.emb j
      = (ix2 (⟨win0_2.index t (0 : Fin 2) * 2048 + (j 0).val, by omega⟩ : Fin 8192) (⟨(j 1).val, hj1⟩ : Fin 1024) : Sflat.Idx) := by
    funext a; apply Fin.ext
    match a with
    | ⟨0, _⟩ => show win0_2.index t (0 : Fin 2) * 2048 + 1 * (j 0).val = win0_2.index t (0 : Fin 2) * 2048 + (j 0).val; omega
    | ⟨1, _⟩ => show win0_2.index t (1 : Fin 2) * 1024 + 1 * (j 1).val = (j 1).val; omega
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * (j 1).val = win0_2.index t (1 : Fin 2) * 1024 + 1 * (j 1).val; omega
  -- the table entry's place: the block never moves
  have h1 : ((cfg0.win 1).blk t).view.emb j
      = tableAtFlat (⟨win0_2.index t (0 : Fin 2) * 2048 + (j 0).val, by omega⟩ : Fin 8192) (⟨(j 1).val, hj1⟩ : Fin 1024) := by
    funext a; apply Fin.ext
    match a with
    | ⟨0, _⟩ => show win0_1.index t (0 : Fin 2) * 2048 + 1 * (j 0).val = (win0_2.index t (0 : Fin 2) * 2048 + (j 0).val) % 2048; omega
    | ⟨1, _⟩ => show win0_1.index t (1 : Fin 2) * 1024 + 1 * (j 1).val = (j 1).val; omega
  rw [h0, h1, h2]
  rfl

/-! ## The whole output array -/

/-- An index of the output is in point `t`'s block iff each coordinate is in the block's range. -/
theorem mem_block (t : Fin cfg0.N) (i : S8192x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v1).slice (win0_2.rect t)).set ↔ _
  rw [View.set_slice_whole, Rect.mem_set_unit]
  exact Iff.rfl

/-- The four blocks cover the output: row `r` lies in the block of the point whose block row is `r / 2048`. -/
theorem covered (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  obtain ⟨t, ht⟩ := block_row_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE OUTPUT ARRAY after the kernel: the row-wise sum. -/
theorem output_eq (c : Dev nD) : (dats m 0 c).arrAt 2 cfg0.N = byRow (V m c main_v0) (V m c main_arg1) :=
  (dats m 0 c).arrAt_eq_of_cover 2 _ (fun t _ => flushed_eq m c t) covered

/-! ## The host lines around the kernel -/

/-- The kernel finds, as its first operand, `x` flattened. -/
theorem flat_eq (c : Dev nD) :
    (V m c main_v0 : S8192x1024.Idx → Elt F .f32) = shapeCast S8192x1024 (m ((c : Thread nD τ).loc main_arg0)) shapeCasts_S4x2048x1024_S8192x1024 := by
  show StableHlo.after hostOps0 (fun b => m (c, b)) (Proc.devRef .tc main_v0) = _
  after_results
  rfl

/-- The program's result is the kernel's output un-flattened. -/
theorem result_eq (c : Dev nD) :
    Pipeline.afterTail₀ cfgs (dats m) 0 (V0 m) [hostOps1] c main_v2
      = shapeCast S4x2048x1024 ((dats m 0 c).arrAt 2 cfg0.N) shapeCasts_S8192x1024_S4x2048x1024 := by
  unfold Pipeline.afterTail₀
  show StableHlo.after hostOps1 _ (Proc.devRef .tc main_v2) = _
  after_results
  have e := Pipeline.withArrays_arr spec0 launch0.win.arr_inj c (V0 m c) (fun w => (dats m 0 c).arrAt w cfg0.N) 2
  funext i
  exact congrArg (fun A : S8192x1024.Idx → Elt F .f32 => shapeCast S4x2048x1024 A shapeCasts_S8192x1024_S4x2048x1024 i) e

/-! ## The run -/

/-- THE PROGRAM'S RESULT as a function of its two arguments: the addition by batches. -/
theorem value_eq (c : Dev nD) :
    Pipeline.afterTail₀ cfgs (dats m) 0 (V0 m) [hostOps1] c main_v2
      = byBatch (m ((c : Thread nD τ).loc main_arg0)) (m ((c : Thread nD τ).loc main_arg1)) := by
  rw [result_eq, output_eq, flat_eq, V_main_arg1]
  exact unflatten_byRow_flatten _ _ _ _

/-- From any memory with zero counters every weakly fair execution of the kernel's program terminates; its result
    buffer ends at the addition by batches of the arguments as launched, and the arguments end unchanged. -/
theorem run : θ_run defs (onTc (τ := τ) (main (F := F))) ⟨m, fun _ => 0, ρ⟩ fun r => ∀ c : Dev nD,
      r.2.mem ((c : Thread nD τ).loc main_v2) = byBatch (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (value_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.RowValue

end
-- ==== Proof.RefRun.lean ====
/-
  The reference program's run, read back as one pure term.

  The reference adds to every batch of `x` the first 2048 rows of the table, fetched by `jnp.take` at the
  positions 0 … 2047.  Its @main is a straight line of host operations once the two outlined helper
  functions are put back at their call sites: the positions (an iota), the wrap of negative positions
  (`p < 0 ? p + 4096 : p`), the positions as a column, the test `0 ≤ p ≤ 4095` reduced over the column's one
  entry, the gather of table rows, the fill of out-of-range rows with NaN, two broadcasts that copy the
  2048 × 1024 slab to every batch, and the addition.  This module lists those 27 operations, shows @main is
  their sequence, and names what the result buffer holds after every weakly fair execution: `summed x table`.
-/
import proofs.«170711_g66829691126127_cont_sun_c4_580_13_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-! ## The pure terms -/

/-- The positions 0 … 2047 as 32-bit words. -/
def positions : IVec S2048 32 := iotaInDim S2048 32 0

/-- `jnp.take`'s wrap of a negative position: `p + 4096` where `p < 0`, else `p`. -/
def wrapped : IVec S2048 32 :=
  select (cmpi .slt positions (broadcastInDim S2048 ![] bcast_S_S2048 (constantI S_ 32 0#32)))
    (addi positions (broadcastInDim S2048 ![] bcast_S_S2048 (constantI S_ 32 4096#32))) positions

/-- The wrapped positions as a 2048 × 1 column: the gather's start indices. -/
def column : IVec S2048x1 32 := broadcastInDim S2048x1 ![0] bcast_S2048_S2048x1_0 wrapped

/-- Per start index, whether it lies in 0 … 4095. -/
def inRange : IVec S2048x1 1 :=
  andi (cmpi .sge column (broadcastInDim S2048x1 ![] bcast_S_S2048x1 (constantI S_ 32 0#32)))
    (cmpi .sle column (broadcastInDim S2048x1 ![0, 1] bcast_S1x1_S2048x1_0_1
      (broadcastInDim S1x1 ![1] bcast_S1_S1x1_1 (constantI S1 32 4095#32))))

/-- Per row, whether its one start index lies in range: the conjunction over the column's one entry. -/
def rowOk : IVec S2048 1 := Host.reduce IntOp.andi inRange (constantI S_ 1 1#1) reducesTo_S2048x1_S2048_d1 h_S_

/-- The gathered rows, NaN where the row's start index is out of range. -/
def taken (table : FVec F S4096x1024 .f32) : FVec F S2048x1024 .f32 :=
  select (broadcastInDim S2048x1024 ![0] bcast_S2048_S2048x1024_0 rowOk)
    (Host.gather gather_S4096x1024_S2048x1_S2048x1024_1_0_n_n_0_1_11024 table column)
    (broadcastInDim S2048x1024 ![] bcast_S_S2048x1024 (constant S_ .f32 0x7FC00000#32))

/-- The reference's result: `x` plus the gathered slab copied to every batch. -/
def summed (x : FVec F S4x2048x1024 .f32) (table : FVec F S4096x1024 .f32) : FVec F S4x2048x1024 .f32 :=
  addf x (broadcastInDim S4x2048x1024 ![0, 1, 2] bcast_S1x2048x1024_S4x2048x1024_0_1_2
    (broadcastInDim S1x2048x1024 ![1, 2] bcast_S2048x1024_S1x2048x1024_1_2 (taken table)))

/-! ## @main as a list of operations -/

/-- @main's operations in order, the two helper functions' bodies at their call sites. -/
abbrev ops : List (HloOp τ sig (Elt F)) :=
  [ nullary main_v0 (iotaInDim S2048 32 0),
    TRef.nullary main_call0.c (constantI S_ 32 0#32),
    TRef.unary main_call0.c main_call0.v0 (broadcastInDim S2048 ![] bcast_S_S2048),
    TRef.binary (.of main_v0) main_call0.v0 main_call0.v1 (cmpi .slt),
    TRef.nullary main_call0.c_0 (constantI S_ 32 4096#32),
    TRef.unary main_call0.c_0 main_call0.v2 (broadcastInDim S2048 ![] bcast_S_S2048),
    TRef.binary (.of main_v0) main_call0.v2 main_call0.v3 addi,
    TRef.ternary main_call0.v1 main_call0.v3 (.of main_v0) main_call0.call0.v0 select,
    TRef.unary main_call0.call0.v0 main_call0.v5 (broadcastInDim S2048x1 ![0] bcast_S2048_S2048x1_0),
    TRef.nullary main_call0.c_1 (constantI S1 32 4095#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg1) main_call0.v5 main_call0.v13 (fun x i => Host.gather gather_S4096x1024_S2048x1_S2048x1024_1_0_n_n_0_1_11024 x i),
    TRef.unary main_call0.v12 main_call0.v14 (broadcastInDim S2048x1024 ![0] bcast_S2048_S2048x1024_0),
    TRef.nullary main_call0.cst (constant S_ .f32 0x7FC00000#32),
    TRef.unary main_call0.cst main_call0.v15 (broadcastInDim S2048x1024 ![] bcast_S_S2048x1024),
    TRef.ternary main_call0.v14 main_call0.v13 main_call0.v15 main_call0.v16 select,
    unary main_v1 main_v2 (broadcastInDim S1x2048x1024 ![1, 2] bcast_S2048x1024_S1x2048x1024_1_2 : (⟨S2048x1024, .f32⟩ : BufTy).Contents (Elt F) → (⟨S1x2048x1024, .f32⟩ : BufTy).Contents (Elt F)),
    unary main_v2 main_v3 (broadcastInDim S4x2048x1024 ![0, 1, 2] bcast_S1x2048x1024_S4x2048x1024_0_1_2 : (⟨S1x2048x1024, .f32⟩ : BufTy).Contents (Elt F) → (⟨S4x2048x1024, .f32⟩ : BufTy).Contents (Elt F)),
    binary main_arg0 main_v3 main_v4 (addf : (⟨S4x2048x1024, .f32⟩ : BufTy).Contents (Elt F) → (⟨S4x2048x1024, .f32⟩ : BufTy).Contents (Elt F) → (⟨S4x2048x1024, .f32⟩ : BufTy).Contents (Elt F)) ]

set_option maxRecDepth 4096 in
/-- @main is that straight line: the helper functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub ..⟩

/-! ## What the buffers hold after the line -/

attribute [local irreducible] Host.reduce Host.gather in
set_option maxRecDepth 8192 in
/-- The result buffer after the line holds `summed` of the two arguments' contents. -/
theorem result_eq (V : Valuation τ sig (Elt F)) :
    after ops V (main_v4 : DevRef τ sig) = summed (V (main_arg0 : DevRef τ sig)) (V (main_arg1 : DevRef τ sig)) := by
  after_results
  simp only [TRef.toBuf, TRef.ofBuf, cast_eq]
  unfold summed taken rowOk inRange column wrapped positions
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

/-- From any memory with zero counters every weakly fair execution of the reference terminates; the result buffer
    ends at `summed` of the arguments as launched, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = summed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v4).trans (result_eq _), (h c main_arg0).trans (arg0_eq _), (h c main_arg1).trans (arg1_eq _)⟩)
    (run_seq scopedRefs_eq scopedSems_eq defs main (fun _ => ops) main_eq (fun _ => ops_sub) m ρ)

end Cert.ReferenceIdeal.Straight

end
-- ==== Proof.RefValue.lean ====
/-
  The reference's term, read entry by entry.

  Entry `(b, s, d)` of the reference's result is `x (b, s, d)` plus entry `(s, d)` of the gathered slab.  The
  position of row `s` is the word `s` itself (0 ≤ s < 2048): it is not negative, so it is not wrapped; it lies in
  0 … 4095, so the row is not filled with NaN; and the gather, which clamps its start row into 0 … 4095, reads
  table row `s`.  Hence the slab's entry is `table (s, d)` and the result is the addition by batches.
-/
import proofs.«170711_g66829691126127_cont_sun_c4_580_13_alg».proof.Proof.RefRun
import proofs.«170711_g66829691126127_cont_sun_c4_580_13_alg».proof.Proof.Spec
import Idealize.ShloMosaic.Lib.ValueLayout
import Idealize.ShloMosaic.PureOps.Reduce

noncomputable section

namespace Cert.ReferenceIdeal.Straight

open Cert.ReferenceIdeal Cert.ReferenceIdeal.Gen Idealize.ShloMosaic
open Idealize.ShloMosaic.ValueIdx Cert.PosAdd

variable {F : FTy → Type} [FloatOps F]

/-! ## The positions' words -/

/-- For a position below 2048, as a 32-bit word: it is not negative, it lies in 0 … 4095, and its signed value is
    itself. -/
theorem word_facts : ∀ s : Fin 2048,
    IntOp.cmpi .slt (BitVec.ofNat 32 s.val) 0#32 = 0#1
    ∧ IntOp.cmpi .sge (BitVec.ofNat 32 s.val) 0#32 = 1#1
    ∧ IntOp.cmpi .sle (BitVec.ofNat 32 s.val) 4095#32 = 1#1
    ∧ (BitVec.ofNat 32 s.val).toInt.toNat = s.val := by
  decide +kernel

/-- The wrap leaves every position as it is. -/
theorem wrapped_apply (s : Fin 2048) : wrapped (ix1 s) = BitVec.ofNat 32 s.val := by
  show Scalar.select (IntOp.cmpi .slt (BitVec.ofNat 32 s.val) 0#32) _ (BitVec.ofNat 32 s.val) = _
  rw [(word_facts s).1, select_zero]

/-- The column's entry for row `s` is the word `s`. -/
theorem column_apply (s : Fin 2048) (z : Fin 1) : column (ix2 s z) = BitVec.ofNat 32 s.val := by
  unfold column
  refine (broadcastInDim_apply _ _ _ _ (ix1 s) fun a => ?_).trans (wrapped_apply s)
  match a with
  | ⟨0, _⟩ => rfl

/-- Every start index is in range. -/
theorem inRange_eq : inRange = fun _ => 1#1 := by
  funext j
  obtain ⟨s, z, rfl⟩ : ∃ (s : Fin 2048) (z : Fin 1), j = ix2 s z := ⟨j 0, j 1, eq_ix2 j⟩
  show IntOp.andi (IntOp.cmpi .sge (column (ix2 s z)) 0#32) (IntOp.cmpi .sle (column (ix2 s z)) 4095#32) = 1#1
  rw [column_apply, (word_facts s).2.1, (word_facts s).2.2.1]
  rfl

/-- A conjunction of ones from one is one. -/
theorem foldl_and_ones {ι : Type} (l : List ι) : l.foldl (fun r _ => IntOp.andi r 1#1) 1#1 = 1#1 := by
  induction l with
  | nil => rfl
  | cons _ l ih => exact ih

/-- So every row is kept. -/
theorem rowOk_eq : rowOk = fun _ => 1#1 := by
  funext j
  unfold rowOk
  rw [inRange_eq, Host.reduce_eq_foldl]
  exact foldl_and_ones _

/-! ## The gather -/

/-- The reference's gather: its dimension numbers. -/
abbrev rowGather := gather_S4096x1024_S2048x1_S2048x1024_1_0_n_n_0_1_11024

/-- The gather reads, at `(s, d)`, the table at the row its start index names — read signed and clamped into
    0 … 4095 — and lane `d`: axis 0 of the table is collapsed and started by the index, axis 1 is an offset axis. -/
theorem gather_apply {α : Type} (table : S4096x1024.Idx → α) (idx : IVec S2048x1 32) (s : Fin 2048) (d : Fin 1024) :
    Host.gather rowGather table idx (ix2 s d)
      = table (ix2 (⟨min (idx (ix2 s (0 : Fin 1))).toInt.toNat 4095, by omega⟩ : Fin 4096) d) := by
  unfold Host.gather
  refine congrArg table (funext fun a => Fin.ext ?_)
  match a with
  | ⟨0, _⟩ =>
    show rowGather.start (ix2 s d) idx 0 + rowGather.batchCoord (ix2 s d) 0 + rowGather.offCoord (ix2 s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ rowGather.startIndexMap from List.mem_singleton.mpr rfl)]
    have hsi : rowGather.siIdx (ix2 s d) ⟨List.idxOf (0 : Fin 2) rowGather.startIndexMap,
        List.idxOf_lt_length_iff.2 (List.mem_singleton.mpr rfl)⟩ = ix2 s (0 : Fin 1) := by
      funext b; refine Fin.ext ?_
      match b with
      | ⟨0, _⟩ => rfl
      | ⟨1, _⟩ => rfl
    rw [hsi]
    rfl
  | ⟨1, _⟩ =>
    show rowGather.start (ix2 s d) idx 1 + rowGather.batchCoord (ix2 s d) 1 + rowGather.offCoord (ix2 s d) 1 = d.val
    rw [GatherDims.batchCoord_eq_zero _ _ _ List.not_mem_nil]
    unfold GatherDims.start
    rw [dif_neg (show (1 : Fin 2) ∉ rowGather.startIndexMap from by decide)]
    unfold GatherDims.offCoord
    rw [dif_pos (show (1 : Fin 2) ∈ rowGather.sKept from by decide)]
    simp only [Nat.zero_add, Nat.add_zero]
    rfl

/-! ## The slab and the sum -/

/-- The slab's entry `(s, d)` is the table's entry `(s, d)`. -/
theorem taken_apply (table : FVec F S4096x1024 .f32) (s : Fin 2048) (d : Fin 1024) :
    taken table (ix2 s d) = table (tableAt s d) := by
  show Scalar.select (broadcastInDim S2048x1024 ![0] bcast_S2048_S2048x1024_0 rowOk (ix2 s d))
    (Host.gather rowGather table column (ix2 s d)) _ = _
  rw [rowOk_eq]
  show Scalar.select 1#1 (Host.gather rowGather table column (ix2 s d)) _ = _
  rw [select_one, gather_apply]
  unfold tableAt
  refine congrArg table (congrArg (fun r : Fin 4096 => ix2 r d) (Fin.ext ?_))
  show min (column (ix2 s (0 : Fin 1))).toInt.toNat 4095 = s.val
  rw [column_apply, (word_facts s).2.2.2]
  omega

/-- THE REFERENCE'S RESULT is the addition by batches. -/
theorem summed_eq (x : FVec F S4x2048x1024 .f32) (table : FVec F S4096x1024 .f32) : summed x table = byBatch x table := by
  funext i
  obtain ⟨b, s, d, rfl⟩ : ∃ (b : Fin 4) (s : Fin 2048) (d : Fin 1024), i = ix3 b s d := ⟨i 0, i 1, i 2, eq_ix3 i⟩
  rw [byBatch_apply]
  show FloatOps.addf (x (ix3 b s d)) (broadcastInDim S4x2048x1024 ![0, 1, 2] bcast_S1x2048x1024_S4x2048x1024_0_1_2
    (broadcastInDim S1x2048x1024 ![1, 2] bcast_S2048x1024_S1x2048x1024_1_2 (taken table)) (ix3 b s d)) = _
  refine congrArg (FloatOps.addf (x (ix3 b s d))) ?_
  refine (broadcastInDim_apply _ _ _ _ (ix3 (0 : Fin 1) s d) fun a => ?_).trans ?_
  · match a with
    | ⟨0, _⟩ => rfl
    | ⟨1, _⟩ => rfl
    | ⟨2, _⟩ => rfl
  refine (broadcastInDim_apply _ _ _ _ (ix2 s d) fun a => ?_).trans (taken_apply table s d)
  match a with
  | ⟨0, _⟩ => rfl
  | ⟨1, _⟩ => rfl

end Cert.ReferenceIdeal.Straight

end
-- ==== Proof.lean ====
/-
  The certificate: the kernel adds the positional table to `x` exactly as the reference does.

  Both programs compute, for every batch `b`, position `s < 2048` and lane `d`, the one sum
  `x (b, s, d) + table (s, d)` — the kernel over `x` flattened to 8192 rows in four blocks of 2048 rows, each
  added to the table's first 2048 rows; the reference by gathering those rows at the positions 0 … 2047 and
  broadcasting them over the batches.  No law of arithmetic is needed beyond re-indexing (row `2048·b + s` of the
  flat view is row `s` of batch `b`), so the precondition is never opened.  The idealization rewrote nothing, so
  `preserves` is trivial; the three frames are the programs' runs with the results dropped.
-/
import proofs.«170711_g66829691126127_cont_sun_c4_580_13_alg».proof.Defs
import proofs.«170711_g66829691126127_cont_sun_c4_580_13_alg».proof.Proof.Gen.Kernel
import proofs.«170711_g66829691126127_cont_sun_c4_580_13_alg».proof.Proof.Gen.Kernel.Frame
import proofs.«170711_g66829691126127_cont_sun_c4_580_13_alg».proof.Proof.Gen.KernelIdeal
import proofs.«170711_g66829691126127_cont_sun_c4_580_13_alg».proof.Proof.Gen.KernelIdeal.Frame
import proofs.«170711_g66829691126127_cont_sun_c4_580_13_alg».proof.Proof.Gen.ReferenceIdeal
import proofs.«170711_g66829691126127_cont_sun_c4_580_13_alg».proof.Proof.Gen.Pre_finite_inputs
import proofs.«170711_g66829691126127_cont_sun_c4_580_13_alg».proof.Proof.KernelValue
import proofs.«170711_g66829691126127_cont_sun_c4_580_13_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Straight.run (F := Ideal) m ρ)

theorem preserves : Cert.preserves_Kernel_KernelIdeal := trivial

/-- Both runs end with the result buffer at the addition by batches of the (agreeing) arguments. -/
theorem algebraic : Cert.algebraic_KernelIdeal_ReferenceIdeal := by
  intro m ρ m' ρ' _ hagree
  refine ⟨_, Cert.KernelIdeal.RowValue.run (F := Ideal) m ρ, ?_⟩
  refine (θ_run Cert.ReferenceIdeal.defs _ _).mono (fun _ h c => ⟨?_, (h c).2⟩)
    (Cert.ReferenceIdeal.Straight.run (F := Ideal) m' ρ')
  rw [(h c).1, Cert.ReferenceIdeal.Straight.summed_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
